-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768x512 : Shape := ⟨2, ![32768, 512]⟩
abbrev S32768x64 : Shape := ⟨2, ![32768, 64]⟩
abbrev S2560x256 : Shape := ⟨2, ![2560, 256]⟩
abbrev S256 : Shape := ⟨1, ![256]⟩
abbrev S64x256 : Shape := ⟨2, ![64, 256]⟩
abbrev S64x1 : Shape := ⟨2, ![64, 1]⟩
abbrev S1 : Shape := ⟨1, ![1]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S32768x64 : S_.BroadcastsInDim S32768x64 (![] : Fin 0 → Fin S32768x64.rank)
  reducesTo_S32768x64_S_d0_1 : S32768x64.ReducesTo [0, 1] S_
  bcast_S_S2560x256 : S_.BroadcastsInDim S2560x256 (![] : Fin 0 → Fin S2560x256.rank)
  reducesTo_S2560x256_S_d0_1 : S2560x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256 .f32) (main_arg8 : FVec F S64x1 .f32) (main_arg9 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S2560x256 .f32) (main_arg5 : FVec F S256 .f32) (main_arg6 : FVec F S64x256 .f32) (main_arg7 : FVec F S256 .f32) (main_arg8 : FVec F S64x1 .f32) (main_arg9 : FVec F S1 .f32) (main_v13 : IVec S_ 1) (main_v16 : IVec S32768x64 1) : IVec S_ 1 :=
  let main_c_5 : IVec S_ 1 := constantI S_ 1 1#1
  let main_v17 : IVec S_ 1 := (fun x v => Host.reduce IntOp.andi x v reducesTo_S32768x64_S_d0_1 h_S_) main_v16 main_c_5
  let main_v18 : IVec S_ 1 := andi main_v13 main_v17
  let main_v19 : FVec F S2560x256 .f32 := Host.absf main_arg4
  let main_cst_6 : FVec F S_ .f32 := constant S_ .f32 0x7F800000#32
  let main_v20 : FVec F S2560x256 .f32 := broadcastInDim S2560x256 ![] bcast_S_S2560x256 main_cst_6
  let main_v21 : IVec S2560x256 1 := cmpf .olt main_v19 main_v20
  let main_c_7 : IVec S_ 1 := constantI S_ 1 1#1
  let main_v22 : IVec S_ 1 := (fun x v => Host.reduce IntOp.andi x v reducesTo_S2560x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x2048 .f32) (main_arg1 : FVec F S32768x512 .f32) (main_arg2 : FVec F S32768x64 .f32) (main_arg3 : FVec F S32768x64 .f32) (main_arg4 : FVec F S2560x256 .f32) (main_arg5 : FVec F S256 .f32) (main_arg6 : FVec F S64x256 .f32) (main_arg7 : FVec F S256 .f32) (main_arg8 : FVec F S64x1 .f32) (main_arg9 : FVec F S1 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  let main_v14 : FVec F S32768x64 .f32 := Host.absf main_arg3
  let main_cst_4 : FVec F S_ .f32 := constant S_ .f32 0x7F800000#32
  let main_v15 : FVec F S32768x64 .f32 := broadcastInDim S32768x64 ![] bcast_S_S32768x64 main_cst_4
  let main_v16 : IVec S32768x64 1 := cmpf .olt main_v14 main_v15
  fn_part1 (F := F) main_arg4 main_arg5 main_arg6 main_arg7 main_arg8 main_arg9 main_v13 main_v16
-- ==== Kernel.lean ====
abbrev S32768x2048 : Shape := ⟨2, ![32768, 2048]⟩
abbrev S32768x512 : Shape := ⟨2, ![32768, 512]⟩
abbrev S32768x64 : Shape := ⟨2, ![32768, 64]⟩
abbrev S2560x256 : Shape := ⟨2, ![2560, 256]⟩
abbrev S256 : Shape := ⟨1, ![256]⟩
abbrev S64x256 : Shape := ⟨2, ![64, 256]⟩
abbrev S64x1 : Shape := ⟨2, ![64, 1]⟩
abbrev S1 : Shape := ⟨1, ![1]⟩
abbrev S2048x256 : Shape := ⟨2, ![2048, 256]⟩
abbrev S512x256 : Shape := ⟨2, ![512, 256]⟩
abbrev S1x256 : Shape := ⟨2, ![1, 256]⟩
abbrev S1x64 : Shape := ⟨2, ![1, 64]⟩
abbrev S1x1 : Shape := ⟨2, ![1, 1]⟩
abbrev S32768x1 : Shape := ⟨2, ![32768, 1]⟩
abbrev S1024x2048 : Shape := ⟨2, ![1024, 2048]⟩
abbrev S1024x512 : Shape := ⟨2, ![1024, 512]⟩
abbrev S1024x64 : Shape := ⟨2, ![1024, 64]⟩
abbrev S1024x1 : Shape := ⟨2, ![1024, 1]⟩
abbrev S1024x256 : Shape := ⟨2, ![1024, 256]⟩
abbrev S1024 : Shape := ⟨1, ![1024]⟩

abbrev nBuf : Space → Nat
  | .hbm => 22
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x512, .f32⟩
  | .hbm, ⟨2, _⟩ => ⟨S32768x64, .f32⟩
  | .hbm, ⟨3, _⟩ => ⟨S32768x64, .f32⟩
  | .hbm, ⟨4, _⟩ => ⟨S2560x256, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S64x1, .f32⟩
  | .hbm, ⟨9, _⟩ => ⟨S1, .f32⟩
  | .hbm, ⟨10, _⟩ => ⟨S2048x256, .f32⟩
  | .hbm, ⟨11, _⟩ => ⟨S2048x256, .bf16⟩
  | .hbm, ⟨12, _⟩ => ⟨S512x256, .f32⟩
  | .hbm, ⟨13, _⟩ => ⟨S512x256, .bf16⟩
  | .hbm, ⟨14, _⟩ => ⟨S64x256, .bf16⟩
  | .hbm, ⟨15, _⟩ => ⟨S256, .f32⟩
  | .hbm, ⟨16, _⟩ => ⟨S1x256, .f32⟩
  | .hbm, ⟨17, _⟩ => ⟨S1x64, .f32⟩
  | .hbm, ⟨18, _⟩ => ⟨S1x1, .f32⟩
  | .hbm, ⟨19, _⟩ => ⟨S32768x1, .f32⟩
  | .hbm, ⟨20, _⟩ => ⟨S32768x64, .f32⟩
  | .hbm, ⟨21, _⟩ => ⟨S32768x64, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S2048x256, .bf16⟩
  | .local _ .vmem, ⟨9, _⟩ => ⟨S512x256, .bf16⟩
  | .local _ .vmem, ⟨10, _⟩ => ⟨S64x256, .bf16⟩
  | .local _ .vmem, ⟨11, _⟩ => ⟨S1x256, .f32⟩
  | .local _ .vmem, ⟨12, _⟩ => ⟨S1x64, .f32⟩
  | .local _ .vmem, ⟨13, _⟩ => ⟨S1x1, .f32⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2560x256_S2048x256_0_0 : S2560x256.Slices ![0, 0] S2048x256
  bitsLt_bf16_f32 : FTy.bits .bf16 < FTy.bits .f32
  slices_S2560x256_S512x256_2048_0 : S2560x256.Slices ![2048, 0] S512x256
  shapeCasts_S256_S1x256 : S256.ShapeCasts S1x256
  shapeCasts_S64x1_S1x64 : S64x1.ShapeCasts S1x64
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  iota_S1024x256_d1_w32 : S1024x256.Iotas .tc 32 [1]
  natLt_1_32 : 1 < 32
  slices_S1024x256_o0_0_S1024x64 : S1024x256.Slices ![0, 0] S1024x64
  slices_S1024x256_o0_64_S1024x64 : S1024x256.Slices ![0, 64] S1024x64
  slices_S1024x256_o0_128_S1024x64 : S1024x256.Slices ![0, 128] S1024x64
  slices_S1024x256_o0_192_S1024x64 : S1024x256.Slices ![0, 192] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x2048_S2048x256_S1024x256_1_0_0_1_n_n_wf : DotDims.WF S1024x2048 S2048x256 S1024x256 [1] [0] [0] [1] [] []
  dot_S1024x512_S512x256_S1024x256_1_0_0_1_n_n_wf : DotDims.WF S1024x512 S512x256 S1024x256 [1] [0] [0] [1] [] []
  dot_S1024x64_S64x256_S1024x256_1_0_0_1_n_n_wf : DotDims.WF S1024x64 S64x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .f32 = 32 ∨ (Rect.block (s := S32768x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .bf16 = 32 ∨ (Rect.block (s := S2048x256) S2048x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S32768x1.size a
  hwx0_10 : ∀ i : grid0.Coords, EltTy.bits .f32 = 32 ∨ (Rect.block (s := S32768x1) S1024x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S32768x64.size a
  hwx0_11 : ∀ i : grid0.Coords, EltTy.bits .f32 = 32 ∨ (Rect.block (s := S32768x64) S1024x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x64.size a ≤ S32768x64.size a
  hwx0_12 : ∀ i : grid0.Coords, EltTy.bits .f32 = 32 ∨ (Rect.block (s := S32768x64) S1024x64.size (cc0_transform_12 i) (hinb0_12 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S1024x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S1024x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_2) S1024x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768x512 : Shape := ⟨2, ![32768, 512]⟩
abbrev S32768x64 : Shape := ⟨2, ![32768, 64]⟩
abbrev S2560x256 : Shape := ⟨2, ![2560, 256]⟩
abbrev S256 : Shape := ⟨1, ![256]⟩
abbrev S64x256 : Shape := ⟨2, ![64, 256]⟩
abbrev S64x1 : Shape := ⟨2, ![64, 1]⟩
abbrev S1 : Shape := ⟨1, ![1]⟩
abbrev S32768x2560 : Shape := ⟨2, ![32768, 2560]⟩
abbrev S32768x256 : Shape := ⟨2, ![32768, 256]⟩
abbrev S1x256 : Shape := ⟨2, ![1, 256]⟩
abbrev S_ : Shape := ⟨0, ![]⟩
abbrev S32768x1 : Shape := ⟨2, ![32768, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x512, .f32⟩
  | .hbm, ⟨2, _⟩ => ⟨S32768x64, .f32⟩
  | .hbm, ⟨3, _⟩ => ⟨S32768x64, .f32⟩
  | .hbm, ⟨4, _⟩ => ⟨S2560x256, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S64x1, .f32⟩
  | .hbm, ⟨9, _⟩ => ⟨S1, .f32⟩
  | .hbm, ⟨10, _⟩ => ⟨S32768x2560, .f32⟩
  | .hbm, ⟨11, _⟩ => ⟨S32768x256, .f32⟩
  | .hbm, ⟨12, _⟩ => ⟨S1x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S32768x64, .f32⟩
  | .hbm, ⟨21, _⟩ => ⟨S32768x64, .f32⟩
  | .hbm, ⟨22, _⟩ => ⟨S32768x64, .f32⟩
  | .hbm, ⟨23, _⟩ => ⟨S32768x64, .f32⟩
  | .hbm, ⟨24, _⟩ => ⟨S32768x64, .f32⟩
  | .hbm, ⟨25, _⟩ => ⟨S32768x64, .f32⟩
  | .hbm, ⟨26, _⟩ => ⟨S_, .f32⟩
  | .hbm, ⟨27, _⟩ => ⟨S32768x64, .f32⟩
  | .hbm, ⟨28, _⟩ => ⟨S32768x64, .f32⟩
  | .hbm, ⟨29, _⟩ => ⟨S_, .f32⟩
  | .hbm, ⟨30, _⟩ => ⟨S32768x64, .f32⟩
  | .hbm, ⟨31, _⟩ => ⟨S32768x64, .f32⟩
  | .hbm, ⟨32, _⟩ => ⟨S32768x64, .f32⟩
  | .hbm, ⟨33, _⟩ => ⟨S32768x64, .f32⟩
  | .hbm, ⟨34, _⟩ => ⟨S_, .f32⟩
  | .hbm, ⟨35, _⟩ => ⟨S32768x64, .f32⟩
  | .hbm, ⟨36, _⟩ => ⟨S32768x64, .f32⟩
  | .hbm, ⟨37, _⟩ => ⟨S_, .f32⟩
  | .hbm, ⟨38, _⟩ => ⟨S32768x64, .f32⟩
  | .hbm, ⟨39, _⟩ => ⟨S32768x64, .f32⟩
  | .hbm, ⟨40, _⟩ => ⟨S32768x64, .f32⟩
  | .hbm, ⟨41, _⟩ => ⟨S32768x64, .f32⟩
  | .hbm, ⟨42, _⟩ => ⟨S32768x64, .f32⟩
  | .hbm, ⟨43, _⟩ => ⟨S_, .f32⟩
  | .hbm, ⟨44, _⟩ => ⟨S32768x64, .f32⟩
  | .hbm, ⟨45, _⟩ => ⟨S32768x64, .f32⟩
  | .hbm, ⟨46, _⟩ => ⟨S_, .f32⟩
  | .hbm, ⟨47, _⟩ => ⟨S32768x64, .f32⟩
  | .hbm, ⟨48, _⟩ => ⟨S32768x64, .f32⟩
  | .hbm, ⟨49, _⟩ => ⟨S32768x64, .f32⟩
  | .hbm, ⟨50, _⟩ => ⟨S32768x64, .f32⟩
  | .hbm, ⟨51, _⟩ => ⟨S32768x64, .f32⟩
  | .hbm, ⟨52, _⟩ => ⟨S32768x64, .f32⟩
  | .hbm, ⟨53, _⟩ => ⟨S32768x64, .f32⟩
  | .hbm, ⟨54, _⟩ => ⟨S32768x1, .f32⟩
  | .hbm, ⟨55, _⟩ => ⟨S1x1, .f32⟩
  | .hbm, ⟨56, _⟩ => ⟨S32768x1, .f32⟩
  | .hbm, ⟨57, _⟩ => ⟨S32768x1, .f32⟩
  | .hbm, ⟨58, _⟩ => ⟨S32768x1, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  concatenates_S32768x2048_S32768x512_S32768x2560_d1 : Shape.Concatenates [S32768x2048, S32768x512] S32768x2560 1
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  slices_S32768x256_S32768x64_0_0 : S32768x256.Slices ![0, 0] S32768x64
  slices_S32768x256_S32768x64_0_64 : S32768x256.Slices ![0, 64] S32768x64
  slices_S32768x256_S32768x64_0_128 : S32768x256.Slices ![0, 128] S32768x64
  slices_S32768x256_S32768x64_0_192 : S32768x256.Slices ![0, 192] S32768x64
  bcast_S_S32768x64 : S_.BroadcastsInDim S32768x64 (![] : Fin 0 → Fin S32768x64.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x2560_S2560x256_S32768x256_1_0_0_1_n_n_wf : DotDims.WF S32768x2560 S2560x256 S32768x256 [1] [0] [0] [1] [] []
  dot_S32768x64_S64x256_S32768x256_1_0_0_1_n_n_wf : DotDims.WF S32768x64 S64x256 S32768x256 [1] [0] [0] [1] [] []
  dot_S32768x64_S64x1_S32768x1_1_0_0_1_n_n_wf : DotDims.WF S32768x64 S64x1 S32768x1 [1] [0] [0] [1] [] []

variable [Facts₀]

def dot_S32768x2560_S2560x256_S32768x256_1_0_0_1_n_n : DotDims S32768x2560 S2560x256 S32768x256 where
  lhsContracting := [1]
  rhsContracting := [0]
  lhsNonContracting := [0]
  rhsNonContracting := [1]
  lhsBatch := []
  rhsBatch := []
  wf := dot_S32768x2560_S2560x256_S32768x256_1_0_0_1_n_n_wf
def dot_S32768x64_S64x256_S32768x256_1_0_0_1_n_n : DotDims S32768x64 S64x256 S32768x256 where
  lhsContracting := [1]
  rhsContracting := [0]
  lhsNonContracting := [0]
  rhsNonContracting := [1]
  lhsBatch := []
  rhsBatch := []
  wf := dot_S32768x64_S64x256_S32768x256_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.CellSpec.lean ====
/-
  One step of an LSTM cell with a scalar read-out, on the extended reals.

  A row of the batch carries an observation `s` (2048 numbers), an action `a` (512), a hidden state `h` (64) and a
  cell state `c` (64). The four gates of hidden unit `q` sit in columns `q`, `64 + q`, `128 + q`, `192 + q` of the
  256 fused columns (input, forget, candidate, output). Column `j`'s pre-activation is
      g j = s · Wi[0:2048, j] + a · Wi[2048:2560, j] + h · Wh[:, j] + bi j + bh j,
  the new cell state is  σ(g (64+q)) · c q + σ(g q) · tanh (g (128+q)),  the new hidden state
  σ(g (192+q)) · tanh (new cell state), and the read-out  tanh (Σ_q new hidden q · Wo q + bo).
  Nothing here needs a finite input: only commutativity and associativity of the sum of extended reals are used,
  and a sum over 2560 terms cut after its first 2048.
-/
import Idealize.ShloMosaic.PureOps.Ideal
import Idealize.ShloMosaic.Lib.ValueIdx

noncomputable section

namespace Cert.LstmCell

open Idealize.ShloMosaic Idealize.ShloMosaic.ValueIdx

/-- Hidden unit `q`'s input, forget, candidate and output columns among the 256 fused gate columns. -/
abbrev colI (q : Fin 64) : Fin 256 := ⟨q.val, by have := q.isLt; omega⟩
abbrev colF (q : Fin 64) : Fin 256 := ⟨64 + q.val, by have := q.isLt; omega⟩
abbrev colG (q : Fin 64) : Fin 256 := ⟨128 + q.val, by have := q.isLt; omega⟩
abbrev colO (q : Fin 64) : Fin 256 := ⟨192 + q.val, by have := q.isLt; omega⟩

/-- Row `k` of the observation part and of the action part of the stacked input weights. -/
abbrev rowS (k : Fin 2048) : Fin 2560 := ⟨k.val, by have := k.isLt; omega⟩
abbrev rowA (k : Fin 512) : Fin 2560 := ⟨2048 + k.val, by have := k.isLt; omega⟩

abbrev Mat (a b : Nat) : Type := (⟨2, ![a, b]⟩ : Shape).Idx → EReal
abbrev Row (a : Nat) : Type := (⟨1, ![a]⟩ : Shape).Idx → EReal

/-- A gate column's pre-activation from one row's three inputs, the column's three weight vectors and its bias. -/
def gateSum (s ws : Fin 2048 → EReal) (a wa : Fin 512 → EReal) (h wh : Fin 64 → EReal) (b : EReal) : EReal :=
  ((∑ k, s k * ws k + ∑ k, a k * wa k) + ∑ k, h k * wh k) + b

/-- The new cell state of unit `q` from a row's 256 pre-activations and its old cell state. -/
def cellC (g : Fin 256 → EReal) (c : Fin 64 → EReal) (q : Fin 64) : EReal :=
  Ideal.logistic (g (colF q)) * c q + Ideal.logistic (g (colI q)) * Ideal.tanh (g (colG q))

/-- The new hidden state of unit `q`. -/
def cellH (g : Fin 256 → EReal) (c : Fin 64 → EReal) (q : Fin 64) : EReal :=
  Ideal.logistic (g (colO q)) * Ideal.tanh (cellC g c q)

/-- The read-out of a row. -/
def readout (g : Fin 256 → EReal) (c : Fin 64 → EReal) (wo : Fin 64 → EReal) (bo : EReal) : EReal :=
  Ideal.tanh ((∑ q : Fin 64, cellH g c q * wo q) + bo)

section Arrays

variable (S : Mat 32768 2048) (A : Mat 32768 512) (H C : Mat 32768 64) (Wi : Mat 2560 256) (bi : Row 256)
  (Wh : Mat 64 256) (bh : Row 256) (Wo : Mat 64 1) (bo : Row 1)

/-- Row `r`'s pre-activation in column `j`, from the ten argument arrays. -/
def gates (r : Fin 32768) (j : Fin 256) : EReal :=
  gateSum (fun k => S (ix2 r k)) (fun k => Wi (ix2 (rowS k) j)) (fun k => A (ix2 r k)) (fun k => Wi (ix2 (rowA k) j))
    (fun k => H (ix2 r k)) (fun k => Wh (ix2 k j)) (bi (ix1 j) + bh (ix1 j))

/-- The three results as whole arrays. -/
def newC : Mat 32768 64 := fun i => cellC (gates S A H Wi bi Wh bh (i 0)) (fun q => C (ix2 (i 0) q)) (i 1)
def newH : Mat 32768 64 := fun i => cellH (gates S A H Wi bi Wh bh (i 0)) (fun q => C (ix2 (i 0) q)) (i 1)
def out : Mat 32768 1 := fun i =>
  readout (gates S A H Wi bi Wh bh (i 0)) (fun q => C (ix2 (i 0) q)) (fun q => Wo (ix2 q (0 : Fin 1))) (bo (ix1 (0 : Fin 1)))

end Arrays

/-- A sum over the 2560 stacked rows is the sum over the first 2048 plus the sum over the last 512. -/
theorem sum_stacked (f : Fin 2560 → EReal) : ∑ k : Fin 2560, f k = ∑ k : Fin 2048, f (rowS k) + ∑ k : Fin 512, f (rowA k) :=
  Fin.sum_univ_add (a := 2048) (b := 512) f

/-- The other bracketing of a gate column's pre-activation: one product over the concatenated row `x` (observation then
    action), the first bias added before the hidden state's product and the second after it. -/
theorem gateSum_stacked (x : Fin 2560 → EReal) (w : Fin 2560 → EReal) (h wh : Fin 64 → EReal) (b1 b2 : EReal) :
    (((∑ k : Fin 2560, x k * w k) + b1) + ∑ k, h k * wh k) + b2
      = gateSum (fun k => x (rowS k)) (fun k => w (rowS k)) (fun k => x (rowA k)) (fun k => w (rowA k)) h wh (b1 + b2) := by
  unfold gateSum
  rw [sum_stacked, add_right_comm _ b1, add_assoc _ b1 b2]

/-- The float word `0x3F800000` is the number one. -/
theorem ofBits_one : Ideal.ofBits .f32 0x3F800000#32 = 1 := by
  simp [Ideal.ofBits, Ideal.ieee, -EReal.coe_mul]; norm_num

/-- The logistic function spelt with a quotient, an exponential and a negation is the logistic function. -/
theorem logistic_spelt (x : EReal) : Ideal.div 1 (1 + Ideal.exp (-x)) = Ideal.logistic x := rfl

end Cert.LstmCell

end
-- ==== Proof.GateMask.lean ====
/-
  Which activation each of the 256 fused gate columns gets.

  The body computes the logistic function and the hyperbolic tangent of every column and keeps, per column, the
  tangent where `lane div 64 = 2` (floor division, written out with a truncating quotient, a remainder and sign
  tests) and the logistic function elsewhere. The choice depends on the lane number alone: lanes 128 … 191, the
  candidate gate's, take the tangent; the input, forget and output gates' lanes take the logistic function.
-/
import proofs.«128895_j18322330485052_2_alg».proof.Proof.Gen.KernelIdeal.Skeleton
import proofs.«128895_j18322330485052_2_alg».proof.Proof.CellSpec
import Idealize.ShloMosaic.Lib.Pipeline.Value
import Idealize.ShloMosaic.Lib.ValueIdx

noncomputable section

namespace Cert.KernelIdeal.GateMask

open Cert.KernelIdeal Cert.KernelIdeal.Gen Idealize.ShloMosaic Idealize.ShloMosaic.ValueIdx Cert.LstmCell

variable {F : FTy → Type} [FloatOps F]

/-- The selection bit of a lane as a function of the lane number's 32-bit word: `floor (x / 64) = 2`, the floor
    taken from the truncating quotient by the correction "one less when the signs differ and the remainder is not zero". -/
def tanhBit (x : BitVec 32) : BitVec 1 :=
  IntOp.cmpi .eq
    (Scalar.select
      (IntOp.andi
        (IntOp.cmpi .ne (IntOp.subi ((IntOp.cmpi .sgt x 0#32).setWidth 32) ((IntOp.cmpi .slt x 0#32).setWidth 32))
          (Scalar.subi (Scalar.extui (Scalar.cmpi .sgt 64#32 0#32)) (Scalar.extui (Scalar.cmpi .slt 64#32 0#32))))
        (IntOp.cmpi .ne (IntOp.remsi .vector x 64#32) 0#32))
      (IntOp.subi (IntOp.divsi .vector x 64#32) 1#32)
      (IntOp.divsi .vector x 64#32))
    2#32

/-- The bit over the 256 lanes: set exactly on lanes 128 … 191. -/
theorem tanhBit_lane : ∀ j : Fin 256, tanhBit (BitVec.ofNat 32 j.val) = if 128 ≤ j.val ∧ j.val < 192 then 1#1 else 0#1 := by
  decide +kernel

/-- The selected activations at row `p`, lane `j` of a block: the tangent's value or the logistic function's by the lane's bit. -/
theorem selected_apply (v22 v23 : FVec F S1024x256 .f32) (p : Fin 1024) (j : Fin 256) :
    k0_pay1 v22 v23 (iota .tc S1024x256 32 [1] iota_S1024x256_d1_w32) 64#32 k0_pay8 k0_pay9
        (Scalar.extui (Scalar.cmpi .sgt 64#32 0#32)) (ix2 p j)
      = Scalar.select (tanhBit (BitVec.ofNat 32 j.val)) (v23 (ix2 p j)) (v22 (ix2 p j)) := by
  have hi : iota .tc S1024x256 32 [1] iota_S1024x256_d1_w32 (ix2 p j) = BitVec.ofNat 32 j.val :=
    iota_single_apply .tc S1024x256 32 1 iota_S1024x256_d1_w32 (ix2 p j)
  rw [← hi]
  rfl

theorem selected_I (v22 v23 : FVec F S1024x256 .f32) (p : Fin 1024) (q : Fin 64) :
    k0_pay1 v22 v23 (iota .tc S1024x256 32 [1] iota_S1024x256_d1_w32) 64#32 k0_pay8 k0_pay9
        (Scalar.extui (Scalar.cmpi .sgt 64#32 0#32)) (ix2 p (colI q)) = v22 (ix2 p (colI q)) := by
  rw [selected_apply, tanhBit_lane, if_neg (by have := q.isLt; show ¬(128 ≤ q.val ∧ q.val < 192); omega), select_zero]

theorem selected_F (v22 v23 : FVec F S1024x256 .f32) (p : Fin 1024) (q : Fin 64) :
    k0_pay1 v22 v23 (iota .tc S1024x256 32 [1] iota_S1024x256_d1_w32) 64#32 k0_pay8 k0_pay9
        (Scalar.extui (Scalar.cmpi .sgt 64#32 0#32)) (ix2 p (colF q)) = v22 (ix2 p (colF q)) := by
  rw [selected_apply, tanhBit_lane, if_neg (by have := q.isLt; show ¬(128 ≤ 64 + q.val ∧ 64 + q.val < 192); omega), select_zero]

theorem selected_G (v22 v23 : FVec F S1024x256 .f32) (p : Fin 1024) (q : Fin 64) :
    k0_pay1 v22 v23 (iota .tc S1024x256 32 [1] iota_S1024x256_d1_w32) 64#32 k0_pay8 k0_pay9
        (Scalar.extui (Scalar.cmpi .sgt 64#32 0#32)) (ix2 p (colG q)) = v23 (ix2 p (colG q)) := by
  rw [selected_apply, tanhBit_lane, if_pos (by have := q.isLt; show 128 ≤ 128 + q.val ∧ 128 + q.val < 192; omega), select_one]

theorem selected_O (v22 v23 : FVec F S1024x256 .f32) (p : Fin 1024) (q : Fin 64) :
    k0_pay1 v22 v23 (iota .tc S1024x256 32 [1] iota_S1024x256_d1_w32) 64#32 k0_pay8 k0_pay9
        (Scalar.extui (Scalar.cmpi .sgt 64#32 0#32)) (ix2 p (colO q)) = v22 (ix2 p (colO q)) := by
  rw [selected_apply, tanhBit_lane, if_neg (by have := q.isLt; show ¬(128 ≤ 192 + q.val ∧ 192 + q.val < 192); omega), select_zero]

end Cert.KernelIdeal.GateMask

end
-- ==== Proof.LibMatmulAt.lean ====
/-
  General lemmas, on the extended reals and on index arithmetic, with no program in them:
  a plain matrix product into a zero accumulator read at one entry, and two changes of shape that only move a unit axis.
-/
import Idealize.ShloMosaic.Lib.Pipeline.Value
import Idealize.ShloMosaic.Lib.ValueIdx
import Idealize.ShloMosaic.PureOps.Ideal.Laws

noncomputable section

namespace Cert.LibMatmulAt

open Idealize.ShloMosaic Idealize.ShloMosaic.ValueIdx

/-- A product of an [M, K] by a [K, N] matrix into a zero accumulator, read at row `p`, column `j`: the sum over the
    contracted axis of row `p` of the left factor against column `j` of the right one. The four hypotheses say where
    the dimension numbers put the output's coordinates and the contraction's in the operands. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    matmul d prec lhs rhs (constant ⟨2, ![M, N]⟩ .f32 0x00000000#32) (ix2 p j) = ∑ k : Fin K, lhs (ix2 p k) * rhs (ix2 k j) := by
  show FloatOps.matmul d prec lhs rhs (constant ⟨2, ![M, N]⟩ .f32 0x00000000#32) (ix2 p j) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A vector of `a` numbers viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` numbers viewed as one row reads, at `(u, i)`, the column at `(i, v)`. -/
theorem shapeCast_a1_1a_apply {α : Type} {a : ℕ} (x : (⟨2, ![a, 1]⟩ : Shape).Idx → α) (h : (⟨2, ![a, 1]⟩ : Shape).ShapeCasts ⟨2, ![1, a]⟩)
    (u v : Fin 1) (i : Fin a) : shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

end Cert.LibMatmulAt

end
-- ==== Proof.BodyValue.lean ====
/-
  What the body computes from one point's blocks, read at an index, on the extended reals.

  Row `p` of a block of 1024 rows: the 256 pre-activations are three matrix products into a zero accumulator
  (observation, action and hidden-state rows against their weight blocks; rounding to the narrower float format is
  the identity here) added up, plus the bias row; the three stored values are the new cell state, the new hidden
  state and the read-out of the cell's equations over those pre-activations (Proof/CellSpec.lean), the activation
  of each gate column chosen by its lane (Proof/GateMask.lean), the read-out's sum a lane reduction.
-/
import proofs.«128895_j18322330485052_2_alg».proof.Proof.Gen.KernelIdeal.Skeleton
import proofs.«128895_j18322330485052_2_alg».proof.Proof.CellSpec
import proofs.«128895_j18322330485052_2_alg».proof.Proof.GateMask
import proofs.«128895_j18322330485052_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.LstmCell
open Cert.KernelIdeal.GateMask Cert.LibMatmulAt

/-- The observation rows against the first 2048 weight rows. -/
theorem matmulS_apply (lhs : FVec Ideal S1024x2048 .bf16) (rhs : FVec Ideal S2048x256 .bf16) (p : Fin 1024) (j : Fin 256) :
    matmul dot_S1024x2048_S2048x256_S1024x256_1_0_0_1_n_n none lhs rhs (constant S1024x256 .f32 0x00000000#32) (ix2 p j)
      = ∑ k : Fin 2048, lhs (ix2 p k) * rhs (ix2 k j) :=
  matmul_zero_apply dot_S1024x2048_S2048x256_S1024x256_1_0_0_1_n_n rfl rfl
    (fun i q => by
      unfold DotDims.lhsIdx
      rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
      rfl)
    (fun i q => dot_S1024x2048_S2048x256_S1024x256_1_0_0_1_n_n.lhsIdx_val_of_single rfl i q)
    (fun i q => dot_S1024x2048_S2048x256_S1024x256_1_0_0_1_n_n.rhsIdx_val_of_single rfl i q)
    (fun i q => by
      unfold DotDims.rhsIdx
      rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
      rfl)
    none lhs rhs p j

/-- The action rows against the last 512 weight rows. -/
theorem matmulA_apply (lhs : FVec Ideal S1024x512 .bf16) (rhs : FVec Ideal S512x256 .bf16) (p : Fin 1024) (j : Fin 256) :
    matmul dot_S1024x512_S512x256_S1024x256_1_0_0_1_n_n none lhs rhs (constant S1024x256 .f32 0x00000000#32) (ix2 p j)
      = ∑ k : Fin 512, lhs (ix2 p k) * rhs (ix2 k j) :=
  matmul_zero_apply dot_S1024x512_S512x256_S1024x256_1_0_0_1_n_n rfl rfl
    (fun i q => by
      unfold DotDims.lhsIdx
      rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
      rfl)
    (fun i q => dot_S1024x512_S512x256_S1024x256_1_0_0_1_n_n.lhsIdx_val_of_single rfl i q)
    (fun i q => dot_S1024x512_S512x256_S1024x256_1_0_0_1_n_n.rhsIdx_val_of_single rfl i q)
    (fun i q => by
      unfold DotDims.rhsIdx
      rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
      rfl)
    none lhs rhs p j

/-- The hidden-state rows against the recurrent weights. -/
theorem matmulH_apply (lhs : FVec Ideal S1024x64 .bf16) (rhs : FVec Ideal S64x256 .bf16) (p : Fin 1024) (j : Fin 256) :
    matmul dot_S1024x64_S64x256_S1024x256_1_0_0_1_n_n none lhs rhs (constant S1024x256 .f32 0x00000000#32) (ix2 p j)
      = ∑ k : Fin 64, lhs (ix2 p k) * rhs (ix2 k j) :=
  matmul_zero_apply dot_S1024x64_S64x256_S1024x256_1_0_0_1_n_n rfl rfl
    (fun i q => by
      unfold DotDims.lhsIdx
      rw [dif_neg (show ¬(0 : Fin S1024x64.rank) ∈ dot_S1024x64_S64x256_S1024x256_1_0_0_1_n_n.lhsBatch by decide), dif_pos (show (0 : Fin S1024x64.rank) ∈ dot_S1024x64_S64x256_S1024x256_1_0_0_1_n_n.lhsNonContracting by decide)]
      rfl)
    (fun i q => dot_S1024x64_S64x256_S1024x256_1_0_0_1_n_n.lhsIdx_val_of_single rfl i q)
    (fun i q => dot_S1024x64_S64x256_S1024x256_1_0_0_1_n_n.rhsIdx_val_of_single rfl i q)
    (fun i q => by
      unfold DotDims.rhsIdx
      rw [dif_neg (show ¬(1 : Fin S64x256.rank) ∈ dot_S1024x64_S64x256_S1024x256_1_0_0_1_n_n.rhsBatch by decide), dif_pos (show (1 : Fin S64x256.rank) ∈ dot_S1024x64_S64x256_S1024x256_1_0_0_1_n_n.rhsNonContracting by decide)]
      rfl)
    none lhs rhs p j

/-- The pre-activations of row `p`, column `j` of a block. -/
theorem preact_apply (xh : Vec Ideal S1024x64 .f32) (xs : Vec Ideal S1024x2048 .f32) (xa : Vec Ideal S1024x512 .f32)
    (ws : Vec Ideal S2048x256 .bf16) (wa : Vec Ideal S512x256 .bf16) (wh : Vec Ideal S64x256 .bf16) (b : Vec Ideal S1x256 .f32)
    (p : Fin 1024) (j : Fin 256) :
    k0_pay5 xh xs xa ws wa wh b (ix2 p j)
      = gateSum (fun k => xs (ix2 p k)) (fun k => ws (ix2 k j)) (fun k => xa (ix2 p k)) (fun k => wa (ix2 k j))
          (fun k => xh (ix2 p k)) (fun k => wh (ix2 k j)) (b (ix2 (0 : Fin 1) j)) := by
  unfold k0_pay5 gateSum
  simp only [shapeCast_self]
  have e1 := matmulS_apply (truncf .bf16 xs bitsLt_bf16_f32) ws p j
  have e2 := matmulA_apply (truncf .bf16 xa bitsLt_bf16_f32) wa p j
  have e3 := matmulH_apply (truncf .bf16 xh bitsLt_bf16_f32) wh p j
  have e4 := broadcastTo_1b_ab_apply b broadcasts_S1x256_S1024x256 p j
  simp only [addf_apply]
  rw [e1, e2, e3, e4]
  rfl

/-- The abbreviation for a block's selected activations over its pre-activations `g`. -/
abbrev act (g : FVec Ideal S1024x256 .f32) : FVec Ideal S1024x256 .f32 :=
  k0_pay1 (logistic g) (tanh g) (iota .tc S1024x256 32 [1] iota_S1024x256_d1_w32) 64#32 k0_pay8 k0_pay9
    (Scalar.extui (Scalar.cmpi .sgt 64#32 0#32))

/-- The new cell state at row `p`, unit `q` of a block. -/
theorem cellC_apply (c : Vec Ideal S1024x64 .f32) (g : FVec Ideal S1024x256 .f32) (p : Fin 1024) (q : Fin 64) :
    k0_pay2 c (logistic g) (tanh g) (iota .tc S1024x256 32 [1] iota_S1024x256_d1_w32) 64#32 k0_pay8 k0_pay9
        (Scalar.extui (Scalar.cmpi .sgt 64#32 0#32)) (ix2 p q)
      = cellC (fun j => g (ix2 p j)) (fun q' => c (ix2 p q')) q := by
  unfold k0_pay2 cellC
  simp only [addf_apply, mulf_apply]
  rw [slice2_axis1_apply 64 (act g) slices_S1024x256_o0_64_S1024x64 p q (colF q) rfl,
    slice2_axis1_apply 0 (act g) slices_S1024x256_o0_0_S1024x64 p q (colI q) (Nat.zero_add _).symm,
    slice2_axis1_apply 128 (act g) slices_S1024x256_o0_128_S1024x64 p q (colG q) rfl]
  unfold act
  rw [selected_F, selected_I, selected_G]
  rfl

/-- The new hidden state at row `p`, unit `q` of a block. -/
theorem cellH_apply (c : Vec Ideal S1024x64 .f32) (g : FVec Ideal S1024x256 .f32) (p : Fin 1024) (q : Fin 64) :
    k0_pay3 c (logistic g) (tanh g) (iota .tc S1024x256 32 [1] iota_S1024x256_d1_w32) 64#32 k0_pay8 k0_pay9
        (Scalar.extui (Scalar.cmpi .sgt 64#32 0#32)) (ix2 p q)
      = cellH (fun j => g (ix2 p j)) (fun q' => c (ix2 p q')) q := by
  unfold k0_pay3 cellH
  simp only [mulf_apply]
  rw [slice2_axis1_apply 192 (act g) slices_S1024x256_o0_192_S1024x64 p q (colO q) rfl]
  unfold act
  rw [selected_O]
  show Ideal.logistic _ * Ideal.tanh (k0_pay2 c (logistic g) (tanh g) _ 64#32 k0_pay8 k0_pay9 _ (ix2 p q)) = _
  rw [cellC_apply]

/-- A lane reduction of a [1024, 64] block by addition, read at row `p`: the sum of the row. -/
theorem rowSum_apply (src : FVec Ideal S1024x64 .f32) (hφ : FKind.Formats .f32)
    (hacc : (0x00000000#32 : BitVec 32) = FKind.add.neutral .f32 hφ) (p : Fin 1024) :
    multiReduction .add [1] S1024 src 0x00000000#32 reduces_S1024x64_S1024 hφ hacc (ix1 p) = ∑ k : Fin 64, src (ix2 p k) :=
  (Ideal.multiReduction_add_single src 0x00000000#32 reduces_S1024x64_S1024 hφ hacc (ix1 p)).trans
    (Finset.sum_congr rfl fun k _ => congrArg src (funext fun a => Fin.ext (by
      match a with
      | ⟨0, _⟩ => rfl
      | ⟨1, _⟩ => rfl)))

/-- The read-out at row `p` of a block. -/
theorem readout_apply (c : Vec Ideal S1024x64 .f32) (g : FVec Ideal S1024x256 .f32) (wo : Vec Ideal S1x64 .f32)
    (bo : Vec Ideal S1x1 .f32) (p : Fin 1024) (u : Fin 1) :
    k0_pay4 c (logistic g) (tanh g) (iota .tc S1024x256 32 [1] iota_S1024x256_d1_w32) 64#32 k0_pay8 k0_pay9
        (Scalar.extui (Scalar.cmpi .sgt 64#32 0#32)) wo bo (ix2 p u)
      = readout (fun j => g (ix2 p j)) (fun q' => c (ix2 p q')) (fun q' => wo (ix2 (0 : Fin 1) q'))
          (bo (ix2 (0 : Fin 1) (0 : Fin 1))) := by
  unfold k0_pay4 readout
  simp only [shapeCast_self]
  show Ideal.tanh (shapeCast S1024x1 _ shapeCasts_S1024_S1024x1 (ix2 p u) + broadcastTo S1024x1 bo broadcasts_S1x1_S1024x1 (ix2 p u)) = _
  have e1 := shapeCast_a_a1_apply (multiReduction .add [1] S1024 (mulf (k0_pay3 c (logistic g) (tanh g) (iota .tc S1024x256 32 [1] iota_S1024x256_d1_w32) 64#32 k0_pay8 k0_pay9
        (Scalar.extui (Scalar.cmpi .sgt 64#32 0#32))) (broadcastTo S1024x64 wo broadcasts_S1x64_S1024x64)) 0x00000000#32 reduces_S1024x64_S1024 (.inl rfl) rfl) shapeCasts_S1024_S1024x1 p u
  have e2 := broadcastTo_1b_ab_apply bo broadcasts_S1x1_S1024x1 p u
  have hu : u = (0 : Fin 1) := Subsingleton.elim _ _
  refine congrArg Ideal.tanh (congrArg₂ (· + ·) (e1.trans ?_) (e2.trans (by rw [hu])))
  refine (rowSum_apply _ _ _ p).trans (Finset.sum_congr rfl fun k _ => ?_)
  show k0_pay3 c (logistic g) (tanh g) _ 64#32 k0_pay8 k0_pay9 _ (ix2 p k) * broadcastTo S1024x64 wo broadcasts_S1x64_S1024x64 (ix2 p k) = _
  rw [cellH_apply, broadcastTo_1b_ab_apply]

end Cert.KernelIdeal.BodyValue

end
-- ==== Proof.KernelValue.lean ====
/-
  The kernel's three result arrays after its run are the cell's equations (Proof/CellSpec.lean) of the ten
  argument arrays.

  Grid point `t` of 32 works on rows `1024 t … 1024 t + 1023` of the batch: its blocks of the observation, action,
  hidden-state and cell-state arrays are those rows, and the weight, bias and read-out operands are whole arrays that
  the host prepared before the launch (the two row ranges of the input weights, the recurrent weights, the sum of the
  two biases as one row, the read-out weights as one row, the read-out bias). What the point writes back to each
  result is therefore rows `1024 t …` of that result's specification, and the 32 row ranges cover the batch.
-/
import proofs.«128895_j18322330485052_2_alg».proof.Proof.Gen.KernelIdeal.Value
import proofs.«128895_j18322330485052_2_alg».proof.Proof.CellSpec
import proofs.«128895_j18322330485052_2_alg».proof.Proof.BodyValue
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.LstmCell Cert.KernelIdeal.BodyValue Cert.LibMatmulAt

variable (m : (ℓ : Loc nD τ sig) → Buf (Elt Ideal) ℓ) (ρ : Dev nD → PrngReg)

theorem hz : (![0, 0] : Fin 2 → Nat) = fun _ => 0 := funext fun a => by fin_cases a <;> rfl

/-- Row `p` of grid point `t`'s block is row `1024 t + p` of the batch. -/
abbrev rowAt (t : Fin cfg0.N) (p : Fin 1024) : Fin 32768 :=
  ⟨t.val * 1024 + p.val, by have h : t.val < 32 := lt_of_lt_of_eq t.isLt N_0; have := p.isLt; omega⟩

/-! ## The argument arrays, named -/

abbrev argS (c : Dev nD) : Mat 32768 2048 := m ((c : Thread nD τ).loc main_arg0)
abbrev argA (c : Dev nD) : Mat 32768 512 := m ((c : Thread nD τ).loc main_arg1)
abbrev argH (c : Dev nD) : Mat 32768 64 := m ((c : Thread nD τ).loc main_arg2)
abbrev argC (c : Dev nD) : Mat 32768 64 := m ((c : Thread nD τ).loc main_arg3)
abbrev argWi (c : Dev nD) : Mat 2560 256 := m ((c : Thread nD τ).loc main_arg4)
abbrev argBi (c : Dev nD) : Row 256 := m ((c : Thread nD τ).loc main_arg5)
abbrev argWh (c : Dev nD) : Mat 64 256 := m ((c : Thread nD τ).loc main_arg6)
abbrev argBh (c : Dev nD) : Row 256 := m ((c : Thread nD τ).loc main_arg7)
abbrev argWo (c : Dev nD) : Mat 64 1 := m ((c : Thread nD τ).loc main_arg8)
abbrev argBo (c : Dev nD) : Row 1 := m ((c : Thread nD τ).loc main_arg9)

/-! ## The printed index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-! ## The input blocks as rows of the arrays the region finds -/

theorem blkS_apply (c : Dev nD) (t : Fin cfg0.N) (p : Fin 1024) (k : Fin 2048) :
    (iblk m c 0 t : Vec Ideal S1024x2048 .f32) (ix2 p k) = (V m c main_arg0 : S32768x2048.Idx → EReal) (ix2 (rowAt t p) k) := by
  have hi := idx0 t
  unfold iblk
  rw [View.read_apply]
  show V m c main_arg0 _ = V m c main_arg0 _
  refine congrArg _ (funext fun a => Fin.ext ?_)
  match a with
  | ⟨0, _⟩ => show win0_0.index t 0 * 1024 + 1 * p.val = t.val * 1024 + p.val; rw [hi.1]; omega
  | ⟨1, _⟩ => show win0_0.index t 1 * 2048 + 1 * k.val = k.val; rw [hi.2]; omega

theorem blkA_apply (c : Dev nD) (t : Fin cfg0.N) (p : Fin 1024) (k : Fin 512) :
    (iblk m c 1 t : Vec Ideal S1024x512 .f32) (ix2 p k) = (V m c main_arg1 : S32768x512.Idx → EReal) (ix2 (rowAt t p) k) := by
  have hi := idx1 t
  unfold iblk
  rw [View.read_apply]
  show V m c main_arg1 _ = V m c main_arg1 _
  refine congrArg _ (funext fun a => Fin.ext ?_)
  match a with
  | ⟨0, _⟩ => show win0_1.index t 0 * 1024 + 1 * p.val = t.val * 1024 + p.val; rw [hi.1]; omega
  | ⟨1, _⟩ => show win0_1.index t 1 * 512 + 1 * k.val = k.val; rw [hi.2]; omega

theorem blkH_apply (c : Dev nD) (t : Fin cfg0.N) (p : Fin 1024) (k : Fin 64) :
    (iblk m c 2 t : Vec Ideal S1024x64 .f32) (ix2 p k) = (V m c main_arg2 : S32768x64.Idx → EReal) (ix2 (rowAt t p) k) := by
  have hi := idx2 t
  unfold iblk
  rw [View.read_apply]
  show V m c main_arg2 _ = V m c main_arg2 _
  refine congrArg _ (funext fun a => Fin.ext ?_)
  match a with
  | ⟨0, _⟩ => show win0_2.index t 0 * 1024 + 1 * p.val = t.val * 1024 + p.val; rw [hi.1]; omega
  | ⟨1, _⟩ => show win0_2.index t 1 * 64 + 1 * k.val = k.val; rw [hi.2]; omega

theorem blkC_apply (c : Dev nD) (t : Fin cfg0.N) (p : Fin 1024) (k : Fin 64) :
    (iblk m c 3 t : Vec Ideal S1024x64 .f32) (ix2 p k) = (V m c main_arg3 : S32768x64.Idx → EReal) (ix2 (rowAt t p) k) := by
  have hi := idx3 t
  unfold iblk
  rw [View.read_apply]
  show V m c main_arg3 _ = V m c main_arg3 _
  refine congrArg _ (funext fun a => Fin.ext ?_)
  match a with
  | ⟨0, _⟩ => show win0_3.index t 0 * 1024 + 1 * p.val = t.val * 1024 + p.val; rw [hi.1]; omega
  | ⟨1, _⟩ => show win0_3.index t 1 * 64 + 1 * k.val = k.val; rw [hi.2]; omega

theorem blkWs_apply (c : Dev nD) (t : Fin cfg0.N) (k : Fin 2048) (j : Fin 256) :
    (iblk m c 4 t : Vec Ideal S2048x256 .bf16) (ix2 k j) = (V m c main_v1 : S2048x256.Idx → EReal) (ix2 k j) := by
  have hi := idx4 t
  unfold iblk
  rw [View.read_apply]
  show V m c main_v1 _ = V m c main_v1 _
  refine congrArg _ (funext fun a => Fin.ext ?_)
  match a with
  | ⟨0, _⟩ => show win0_4.index t 0 * 2048 + 1 * k.val = k.val; rw [hi.1]; omega
  | ⟨1, _⟩ => show win0_4.index t 1 * 256 + 1 * j.val = j.val; rw [hi.2]; omega

theorem blkWa_apply (c : Dev nD) (t : Fin cfg0.N) (k : Fin 512) (j : Fin 256) :
    (iblk m c 5 t : Vec Ideal S512x256 .bf16) (ix2 k j) = (V m c main_v3 : S512x256.Idx → EReal) (ix2 k j) := by
  have hi := idx5 t
  unfold iblk
  rw [View.read_apply]
  show V m c main_v3 _ = V m c main_v3 _
  refine congrArg _ (funext fun a => Fin.ext ?_)
  match a with
  | ⟨0, _⟩ => show win0_5.index t 0 * 512 + 1 * k.val = k.val; rw [hi.1]; omega
  | ⟨1, _⟩ => show win0_5.index t 1 * 256 + 1 * j.val = j.val; rw [hi.2]; omega

theorem blkWh_apply (c : Dev nD) (t : Fin cfg0.N) (k : Fin 64) (j : Fin 256) :
    (iblk m c 6 t : Vec Ideal S64x256 .bf16) (ix2 k j) = (V m c main_v4 : S64x256.Idx → EReal) (ix2 k j) := by
  have hi := idx6 t
  unfold iblk
  rw [View.read_apply]
  show V m c main_v4 _ = V m c main_v4 _
  refine congrArg _ (funext fun a => Fin.ext ?_)
  match a with
  | ⟨0, _⟩ => show win0_6.index t 0 * 64 + 1 * k.val = k.val; rw [hi.1]; omega
  | ⟨1, _⟩ => show win0_6.index t 1 * 256 + 1 * j.val = j.val; rw [hi.2]; omega

theorem blkB_apply (c : Dev nD) (t : Fin cfg0.N) (u : Fin 1) (j : Fin 256) :
    (iblk m c 7 t : Vec Ideal S1x256 .f32) (ix2 u j) = (V m c main_v6 : S1x256.Idx → EReal) (ix2 u j) := by
  have hi := idx7 t
  unfold iblk
  rw [View.read_apply]
  show V m c main_v6 _ = V m c main_v6 _
  refine congrArg _ (funext fun a => Fin.ext ?_)
  match a with
  | ⟨0, _⟩ => show win0_7.index t 0 * 1 + 1 * u.val = u.val; rw [hi.1]; omega
  | ⟨1, _⟩ => show win0_7.index t 1 * 256 + 1 * j.val = j.val; rw [hi.2]; omega

theorem blkWo_apply (c : Dev nD) (t : Fin cfg0.N) (u : Fin 1) (q : Fin 64) :
    (iblk m c 8 t : Vec Ideal S1x64 .f32) (ix2 u q) = (V m c main_v7 : S1x64.Idx → EReal) (ix2 u q) := by
  have hi := idx8 t
  unfold iblk
  rw [View.read_apply]
  show V m c main_v7 _ = V m c main_v7 _
  refine congrArg _ (funext fun a => Fin.ext ?_)
  match a with
  | ⟨0, _⟩ => show win0_8.index t 0 * 1 + 1 * u.val = u.val; rw [hi.1]; omega
  | ⟨1, _⟩ => show win0_8.index t 1 * 64 + 1 * q.val = q.val; rw [hi.2]; omega

theorem blkBo_apply (c : Dev nD) (t : Fin cfg0.N) (u v : Fin 1) :
    (iblk m c 9 t : Vec Ideal S1x1 .f32) (ix2 u v) = (V m c main_v8 : S1x1.Idx → EReal) (ix2 u v) := by
  have hi := idx9 t
  unfold iblk
  rw [View.read_apply]
  show V m c main_v8 _ = V m c main_v8 _
  refine congrArg _ (funext fun a => Fin.ext ?_)
  match a with
  | ⟨0, _⟩ => show win0_9.index t 0 * 1 + 1 * u.val = u.val; rw [hi.1]; omega
  | ⟨1, _⟩ => show win0_9.index t 1 * 1 + 1 * v.val = v.val; rw [hi.2]; omega

/-! ## The operands the host prepared, read at an index -/

/-- The first 2048 rows of the input weights (the change of float format is the identity). -/
theorem Ws_apply (c : Dev nD) (k : Fin 2048) (j : Fin 256) :
    (V m c main_v1 : S2048x256.Idx → EReal) (ix2 k j) = argWi m c (ix2 (rowS k) j) := by
  have e : @Eq (FVec Ideal S2048x256 .bf16) (V m c main_v1) (truncf .bf16 (extractStridedSlice S2048x256 ![0, 0]
      (argWi m c) slices_S2560x256_S2048x256_0_0) bitsLt_bf16_f32) := by
    dsimp only [V, hostOps0]; after_results
  rw [e]
  exact slice2_axis0_apply 0 _ slices_S2560x256_S2048x256_0_0 k j (rowS k) (Nat.zero_add _).symm

/-- The last 512 rows of the input weights. -/
theorem Wa_apply (c : Dev nD) (k : Fin 512) (j : Fin 256) :
    (V m c main_v3 : S512x256.Idx → EReal) (ix2 k j) = argWi m c (ix2 (rowA k) j) := by
  have e : @Eq (FVec Ideal S512x256 .bf16) (V m c main_v3) (truncf .bf16 (extractStridedSlice S512x256 ![2048, 0]
      (argWi m c) slices_S2560x256_S512x256_2048_0) bitsLt_bf16_f32) := by
    dsimp only [V, hostOps0]; after_results
  rw [e]
  exact slice2_axis0_apply 2048 _ slices_S2560x256_S512x256_2048_0 k j (rowA k) rfl

/-- The recurrent weights. -/
theorem Wh_apply (c : Dev nD) (k : Fin 64) (j : Fin 256) :
    (V m c main_v4 : S64x256.Idx → EReal) (ix2 k j) = argWh m c (ix2 k j) := by
  have e : @Eq (FVec Ideal S64x256 .bf16) (V m c main_v4) (truncf .bf16 (argWh m c : FVec Ideal S64x256 .f32) bitsLt_bf16_f32) := by
    dsimp only [V, hostOps0]; after_results
  rw [e]
  rfl

/-- The two biases added, as one row. -/
theorem B_apply (c : Dev nD) (u : Fin 1) (j : Fin 256) :
    (V m c main_v6 : S1x256.Idx → EReal) (ix2 u j)
      = argBi m c (ix1 j) + argBh m c (ix1 j) := by
  have e : @Eq (FVec Ideal S1x256 .f32) (V m c main_v6) (shapeCast S1x256 (addf (argBi m c : FVec Ideal S256 .f32)
      (argBh m c)) shapeCasts_S256_S1x256) := by
    dsimp only [V, hostOps0]; after_results; rfl
  rw [e]
  exact shapeCast_a_1a_apply _ shapeCasts_S256_S1x256 u j

/-- The read-out weights as one row. -/
theorem Wo_apply (c : Dev nD) (u : Fin 1) (q : Fin 64) :
    (V m c main_v7 : S1x64.Idx → EReal) (ix2 u q) = argWo m c (ix2 q (0 : Fin 1)) := by
  have e : @Eq (FVec Ideal S1x64 .f32) (V m c main_v7) (shapeCast S1x64 (argWo m c : FVec Ideal S64x1 .f32) shapeCasts_S64x1_S1x64) := by
    dsimp only [V, hostOps0]; after_results; rfl
  rw [e]
  exact shapeCast_a1_1a_apply _ shapeCasts_S64x1_S1x64 u 0 q

/-- The read-out bias. -/
theorem Bo_apply (c : Dev nD) (u v : Fin 1) :
    (V m c main_v8 : S1x1.Idx → EReal) (ix2 u v) = argBo m c (ix1 (0 : Fin 1)) := by
  have e : @Eq (FVec Ideal S1x1 .f32) (V m c main_v8) (shapeCast S1x1 (argBo m c : FVec Ideal S1 .f32) shapeCasts_S1_S1x1) := by
    dsimp only [V, hostOps0]; after_results; rfl
  rw [e]
  obtain rfl : v = (0 : Fin 1) := Subsingleton.elim _ _
  exact shapeCast_a_1a_apply _ shapeCasts_S1_S1x1 u 0

/-! ## One point's values -/

/-- The pre-activations the body computes at point `t`, row `p`, are those of batch row `1024 t + p`. -/
theorem point_gates (c : Dev nD) (t : Fin cfg0.N) (p : Fin 1024) :
    (fun j : Fin 256 => k0_pay5 (iblk m c 2 t) (iblk m c 0 t) (iblk m c 1 t) (iblk m c 4 t) (iblk m c 5 t) (iblk m c 6 t) (iblk m c 7 t) (ix2 p j))
      = gates (argS m c) (argA m c) (argH m c) (argWi m c) (argBi m c) (argWh m c) (argBh m c) (rowAt t p) := by
  funext j
  refine (preact_apply (iblk m c 2 t) (iblk m c 0 t) (iblk m c 1 t) (iblk m c 4 t) (iblk m c 5 t) (iblk m c 6 t) (iblk m c 7 t) p j).trans ?_
  unfold gates
  have h0 : (fun k : Fin 2048 => (iblk m c 0 t : Vec Ideal S1024x2048 .f32) (ix2 p k)) = fun k => argS m c (ix2 (rowAt t p) k) :=
    funext fun k => (blkS_apply m c t p k).trans (congrFun (V_main_arg0 m c) _)
  have h1 : (fun k : Fin 512 => (iblk m c 1 t : Vec Ideal S1024x512 .f32) (ix2 p k)) = fun k => argA m c (ix2 (rowAt t p) k) :=
    funext fun k => (blkA_apply m c t p k).trans (congrFun (V_main_arg1 m c) _)
  have h2 : (fun k : Fin 64 => (iblk m c 2 t : Vec Ideal S1024x64 .f32) (ix2 p k)) = fun k => argH m c (ix2 (rowAt t p) k) :=
    funext fun k => (blkH_apply m c t p k).trans (congrFun (V_main_arg2 m c) _)
  have h4 : (fun k : Fin 2048 => (iblk m c 4 t : Vec Ideal S2048x256 .bf16) (ix2 k j)) = fun k => argWi m c (ix2 (rowS k) j) :=
    funext fun k => (blkWs_apply m c t k j).trans (Ws_apply m c k j)
  have h5 : (fun k : Fin 512 => (iblk m c 5 t : Vec Ideal S512x256 .bf16) (ix2 k j)) = fun k => argWi m c (ix2 (rowA k) j) :=
    funext fun k => (blkWa_apply m c t k j).trans (Wa_apply m c k j)
  have h6 : (fun k : Fin 64 => (iblk m c 6 t : Vec Ideal S64x256 .bf16) (ix2 k j)) = fun k => argWh m c (ix2 k j) :=
    funext fun k => (blkWh_apply m c t k j).trans (Wh_apply m c k j)
  have h7 : (iblk m c 7 t : Vec Ideal S1x256 .f32) (ix2 (0 : Fin 1) j) = argBi m c (ix1 j) + argBh m c (ix1 j) :=
    (blkB_apply m c t 0 j).trans (B_apply m c 0 j)
  rw [h0, h1, h2, h4, h5, h6, h7]

/-- The old cell state's row at point `t`, row `p`. -/
theorem point_cell (c : Dev nD) (t : Fin cfg0.N) (p : Fin 1024) :
    (fun q : Fin 64 => (iblk m c 3 t : Vec Ideal S1024x64 .f32) (ix2 p q)) = fun q => argC m c (ix2 (rowAt t p) q) :=
  funext fun q => (blkC_apply m c t p q).trans (congrFun (V_main_arg3 m c) _)

/-! ## What each point writes back -/

theorem embC (t : Fin cfg0.N) (p : Fin 1024) (q : Fin 64) :
    ((cfg0.win 12).blk t).view.emb (ix2 p q) = (ix2 (rowAt t p) q : S32768x64.Idx) := by
  have hi := idx12 t
  funext a; apply Fin.ext
  match a with
  | ⟨0, _⟩ => show win0_12.index t 0 * 1024 + 1 * p.val = t.val * 1024 + p.val; rw [hi.1]; omega
  | ⟨1, _⟩ => show win0_12.index t 1 * 64 + 1 * q.val = q.val; rw [hi.2]; omega

theorem embH (t : Fin cfg0.N) (p : Fin 1024) (q : Fin 64) :
    ((cfg0.win 11).blk t).view.emb (ix2 p q) = (ix2 (rowAt t p) q : S32768x64.Idx) := by
  have hi := idx11 t
  funext a; apply Fin.ext
  match a with
  | ⟨0, _⟩ => show win0_11.index t 0 * 1024 + 1 * p.val = t.val * 1024 + p.val; rw [hi.1]; omega
  | ⟨1, _⟩ => show win0_11.index t 1 * 64 + 1 * q.val = q.val; rw [hi.2]; omega

theorem embO (t : Fin cfg0.N) (p : Fin 1024) (u : Fin 1) :
    ((cfg0.win 10).blk t).view.emb (ix2 p u) = (ix2 (rowAt t p) u : S32768x1.Idx) := by
  have hi := idx10 t
  funext a; apply Fin.ext
  match a with
  | ⟨0, _⟩ => show win0_10.index t 0 * 1024 + 1 * p.val = t.val * 1024 + p.val; rw [hi.1]; omega
  | ⟨1, _⟩ => show win0_10.index t 1 * 1 + 1 * u.val = u.val; rw [hi.2]; omega

/-- Point `t` writes back its rows of the new cell state. -/
theorem flushedC_eq (c : Dev nD) (t : Fin cfg0.N) :
    (dats m 0 c).flushed 12 t = ((cfg0.win 12).blk t).view.read (Elt Ideal)
      (newC (argS m c) (argA m c) (argH m c) (argC m c) (argWi m c) (argBi m c) (argWh m c) (argBh m c)) := by
  rw [Value.flushed12]
  unfold out0_12
  rw [View.canon_unit_zero hz]
  simp only [View.ld_unit_zero (S := S1024x2048) hz, View.ld_unit_zero (S := S1024x512) hz, View.ld_unit_zero (S := S1024x64) hz,
    View.ld_unit_zero (S := S2048x256) hz, View.ld_unit_zero (S := S512x256) hz, View.ld_unit_zero (S := S64x256) hz,
    View.ld_unit_zero (S := S1x256) hz]
  funext j
  obtain ⟨p, q, rfl⟩ : ∃ (p : Fin 1024) (q : Fin 64), j = ix2 p q := ⟨j 0, j 1, eq_ix2 j⟩
  rw [View.read_apply, embC]
  refine (cellC_apply (iblk m c 3 t) (k0_pay5 (iblk m c 2 t) (iblk m c 0 t) (iblk m c 1 t) (iblk m c 4 t) (iblk m c 5 t) (iblk m c 6 t) (iblk m c 7 t)) p q).trans ?_
  rw [point_gates, point_cell]
  rfl

/-- Point `t` writes back its rows of the new hidden state. -/
theorem flushedH_eq (c : Dev nD) (t : Fin cfg0.N) :
    (dats m 0 c).flushed 11 t = ((cfg0.win 11).blk t).view.read (Elt Ideal)
      (newH (argS m c) (argA m c) (argH m c) (argC m c) (argWi m c) (argBi m c) (argWh m c) (argBh m c)) := by
  rw [Value.flushed11]
  unfold out0_11
  rw [View.canon_unit_zero hz]
  simp only [View.ld_unit_zero (S := S1024x2048) hz, View.ld_unit_zero (S := S1024x512) hz, View.ld_unit_zero (S := S1024x64) hz,
    View.ld_unit_zero (S := S2048x256) hz, View.ld_unit_zero (S := S512x256) hz, View.ld_unit_zero (S := S64x256) hz,
    View.ld_unit_zero (S := S1x256) hz]
  funext j
  obtain ⟨p, q, rfl⟩ : ∃ (p : Fin 1024) (q : Fin 64), j = ix2 p q := ⟨j 0, j 1, eq_ix2 j⟩
  rw [View.read_apply, embH]
  refine (cellH_apply (iblk m c 3 t) (k0_pay5 (iblk m c 2 t) (iblk m c 0 t) (iblk m c 1 t) (iblk m c 4 t) (iblk m c 5 t) (iblk m c 6 t) (iblk m c 7 t)) p q).trans ?_
  rw [point_gates, point_cell]
  rfl

/-- Point `t` writes back its rows of the read-out. -/
theorem flushedO_eq (c : Dev nD) (t : Fin cfg0.N) :
    (dats m 0 c).flushed 10 t = ((cfg0.win 10).blk t).view.read (Elt Ideal)
      (out (argS m c) (argA m c) (argH m c) (argC m c) (argWi m c) (argBi m c) (argWh m c) (argBh m c) (argWo m c) (argBo m c)) := by
  rw [Value.flushed10]
  unfold out0_10
  rw [View.canon_unit_zero hz]
  simp only [View.ld_unit_zero (S := S1024x2048) hz, View.ld_unit_zero (S := S1024x512) hz, View.ld_unit_zero (S := S1024x64) hz,
    View.ld_unit_zero (S := S2048x256) hz, View.ld_unit_zero (S := S512x256) hz, View.ld_unit_zero (S := S64x256) hz,
    View.ld_unit_zero (S := S1x256) hz, View.ld_unit_zero (S := S1x64) hz, View.ld_unit_zero (S := S1x1) hz]
  funext j
  obtain ⟨p, u, rfl⟩ : ∃ (p : Fin 1024) (u : Fin 1), j = ix2 p u := ⟨j 0, j 1, eq_ix2 j⟩
  rw [View.read_apply, embO]
  refine (readout_apply (iblk m c 3 t) (k0_pay5 (iblk m c 2 t) (iblk m c 0 t) (iblk m c 1 t) (iblk m c 4 t) (iblk m c 5 t) (iblk m c 6 t) (iblk m c 7 t))
    (iblk m c 8 t) (iblk m c 9 t) p u).trans ?_
  have hwo : (fun q : Fin 64 => (iblk m c 8 t : Vec Ideal S1x64 .f32) (ix2 (0 : Fin 1) q)) = fun q => argWo m c (ix2 q (0 : Fin 1)) :=
    funext fun q => (blkWo_apply m c t 0 q).trans (Wo_apply m c 0 q)
  have hbo : (iblk m c 9 t : Vec Ideal S1x1 .f32) (ix2 (0 : Fin 1) (0 : Fin 1)) = argBo m c (ix1 (0 : Fin 1)) :=
    (blkBo_apply m c t 0 0).trans (Bo_apply m c 0 0)
  rw [point_gates, point_cell, hwo, hbo]
  rfl

/-! ## The 32 row ranges cover the batch -/

theorem mem_blkC (t : Fin cfg0.N) (i : S32768x64.Idx) :
    i ∈ ((cfg0.win 12).blk t).view.set ↔ ∀ a : Fin 2, win0_12.index t a * S1024x64.size a ≤ (i a).val ∧ (i a).val < win0_12.index t a * S1024x64.size a + S1024x64.size a := by
  show i ∈ ((View.whole main_v9_2).slice (win0_12.rect t)).set ↔ _
  rw [View.set_slice_whole, Rect.mem_set_unit]
  exact Iff.rfl

theorem mem_blkH (t : Fin cfg0.N) (i : S32768x64.Idx) :
    i ∈ ((cfg0.win 11).blk t).view.set ↔ ∀ a : Fin 2, win0_11.index t a * S1024x64.size a ≤ (i a).val ∧ (i a).val < win0_11.index t a * S1024x64.size a + S1024x64.size a := by
  show i ∈ ((View.whole main_v9_1).slice (win0_11.rect t)).set ↔ _
  rw [View.set_slice_whole, Rect.mem_set_unit]
  exact Iff.rfl

theorem mem_blkO (t : Fin cfg0.N) (i : S32768x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v9_0).slice (win0_10.rect t)).set ↔ _
  rw [View.set_slice_whole, Rect.mem_set_unit]
  exact Iff.rfl

/-- Row `r` of the batch is in the block of point `r / 1024`. -/
theorem coverC (i : S32768x64.Idx) : ∃ t : Fin cfg0.N, (cfg0.win 12).flush t = true ∧ i ∈ ((cfg0.win 12).blk t).view.set := by
  have h0 : (i 0).val < 32768 := (i 0).isLt
  have h1 : (i 1).val < 64 := (i 1).isLt
  have hN : cfg0.N = 32 := N_0
  obtain ⟨t, ht⟩ : ∃ t : Fin cfg0.N, t.val = (i 0).val / 1024 := ⟨⟨(i 0).val / 1024, by rw [hN]; omega⟩, rfl⟩
  have hi := idx12 t
  refine ⟨t, flush0_12 t, ?_⟩
  rw [mem_blkC]
  intro a
  match a with
  | ⟨0, _⟩ => show win0_12.index t 0 * 1024 ≤ (i 0).val ∧ (i 0).val < win0_12.index t 0 * 1024 + 1024; rw [hi.1, ht]; omega
  | ⟨1, _⟩ => show win0_12.index t 1 * 64 ≤ (i 1).val ∧ (i 1).val < win0_12.index t 1 * 64 + 64; rw [hi.2]; omega

theorem coverH (i : S32768x64.Idx) : ∃ t : Fin cfg0.N, (cfg0.win 11).flush t = true ∧ i ∈ ((cfg0.win 11).blk t).view.set := by
  have h0 : (i 0).val < 32768 := (i 0).isLt
  have h1 : (i 1).val < 64 := (i 1).isLt
  have hN : cfg0.N = 32 := N_0
  obtain ⟨t, ht⟩ : ∃ t : Fin cfg0.N, t.val = (i 0).val / 1024 := ⟨⟨(i 0).val / 1024, by rw [hN]; omega⟩, rfl⟩
  have hi := idx11 t
  refine ⟨t, flush0_11 t, ?_⟩
  rw [mem_blkH]
  intro a
  match a with
  | ⟨0, _⟩ => show win0_11.index t 0 * 1024 ≤ (i 0).val ∧ (i 0).val < win0_11.index t 0 * 1024 + 1024; rw [hi.1, ht]; omega
  | ⟨1, _⟩ => show win0_11.index t 1 * 64 ≤ (i 1).val ∧ (i 1).val < win0_11.index t 1 * 64 + 64; rw [hi.2]; omega

theorem coverO (i : S32768x1.Idx) : ∃ t : Fin cfg0.N, (cfg0.win 10).flush t = true ∧ i ∈ ((cfg0.win 10).blk t).view.set := by
  have h0 : (i 0).val < 32768 := (i 0).isLt
  have h1 : (i 1).val < 1 := (i 1).isLt
  have hN : cfg0.N = 32 := N_0
  obtain ⟨t, ht⟩ : ∃ t : Fin cfg0.N, t.val = (i 0).val / 1024 := ⟨⟨(i 0).val / 1024, by rw [hN]; omega⟩, rfl⟩
  have hi := idx10 t
  refine ⟨t, flush0_10 t, ?_⟩
  rw [mem_blkO]
  intro a
  match a with
  | ⟨0, _⟩ => show win0_10.index t 0 * 1024 ≤ (i 0).val ∧ (i 0).val < win0_10.index t 0 * 1024 + 1024; rw [hi.1, ht]; omega
  | ⟨1, _⟩ => show win0_10.index t 1 * 1 ≤ (i 1).val ∧ (i 1).val < win0_10.index t 1 * 1 + 1; rw [hi.2]; omega

/-! ## The arrays after the run, and the run -/

theorem finalC (c : Dev nD) : (dats m 0 c).arrAt 12 cfg0.N
    = newC (argS m c) (argA m c) (argH m c) (argC m c) (argWi m c) (argBi m c) (argWh m c) (argBh m c) :=
  (dats m 0 c).arrAt_eq_of_cover 12 _ (fun t _ => flushedC_eq m c t) coverC

theorem finalH (c : Dev nD) : (dats m 0 c).arrAt 11 cfg0.N
    = newH (argS m c) (argA m c) (argH m c) (argC m c) (argWi m c) (argBi m c) (argWh m c) (argBh m c) :=
  (dats m 0 c).arrAt_eq_of_cover 11 _ (fun t _ => flushedH_eq m c t) coverH

theorem finalO (c : Dev nD) : (dats m 0 c).arrAt 10 cfg0.N
    = out (argS m c) (argA m c) (argH m c) (argC m c) (argWi m c) (argBi m c) (argWh m c) (argBh m c) (argWo m c) (argBo m c) :=
  (dats m 0 c).arrAt_eq_of_cover 10 _ (fun t _ => flushedO_eq m c t) coverO

/-- Every weakly fair execution of the kernel's program ends with the three result arrays at the cell's equations of
    the argument arrays, and the argument arrays unchanged. -/
theorem run : θ_run defs (onTc (τ := τ) (main (F := Ideal))) ⟨m, fun _ => 0, ρ⟩ fun r => ∀ c : Dev nD,
      r.2.mem ((c : Thread nD τ).loc main_v9_0)
        = out (argS m c) (argA m c) (argH m c) (argC m c) (argWi m c) (argBi m c) (argWh m c) (argBh m c) (argWo m c) (argBo m c)
      ∧ r.2.mem ((c : Thread nD τ).loc main_v9_1)
        = newH (argS m c) (argA m c) (argH m c) (argC m c) (argWi m c) (argBi m c) (argWh m c) (argBh m c)
      ∧ r.2.mem ((c : Thread nD τ).loc main_v9_2)
        = newC (argS m c) (argA m c) (argH m c) (argC m c) (argWi m c) (argBi m c) (argWh m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (finalO m c), (h c).2.1.trans (finalH m c), (h c).2.2.1.trans (finalC m c), (h c).2.2.2⟩)
    (Value.run_blocks m ρ)

end Cert.KernelIdeal.ArrayValue

end
-- ==== Proof.RefValue.lean ====
/-
  The reference's three results are the cell's equations (Proof/CellSpec.lean), index by index.

  The reference concatenates observation and action into one row of 2560, multiplies it by the stacked input
  weights, adds the first bias, adds the hidden state's product with the recurrent weights, adds the second bias,
  cuts the 256 columns into the four gates, and applies the logistic function spelt 1 / (1 + exp (−x)). The only
  algebra between that and the specification is the cut of the 2560-term sum after its 2048th term and a
  re-bracketing of a sum of four extended reals.
-/
import proofs.«128895_j18322330485052_2_alg».proof.Proof.Gen.ReferenceIdeal.Read
import proofs.«128895_j18322330485052_2_alg».proof.Proof.CellSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.LstmCell

variable (x0 : FVec Ideal S32768x2048 .f32) (x1 : FVec Ideal S32768x512 .f32) (x2 x3 : FVec Ideal S32768x64 .f32)
  (x4 : FVec Ideal S2560x256 .f32) (x5 : FVec Ideal S256 .f32) (x6 : FVec Ideal S64x256 .f32) (x7 : FVec Ideal S256 .f32)
  (x8 : FVec Ideal S64x1 .f32) (x9 : FVec Ideal S1 .f32)

/-! ## The composed index maps, as coordinates -/

theorem lidx1_eq (r : Fin 32768) (j : Fin 256) (k : Fin 2560) : lidx_main_v1 (ix2 r j) k = ix2 r k :=
  funext fun a => Fin.ext (by match a with | ⟨0, _⟩ => rfl | ⟨1, _⟩ => rfl)
theorem ridx1_eq (r : Fin 32768) (j : Fin 256) (k : Fin 2560) : ridx_main_v1 (ix2 r j) k = ix2 k j :=
  funext fun a => Fin.ext (by match a with | ⟨0, _⟩ => rfl | ⟨1, _⟩ => rfl)
theorem idx23_eq (r : Fin 32768) (j : Fin 256) : idx_main_v2 (idx_main_v3 (ix2 r j)) = ix1 j :=
  funext fun a => Fin.ext (by match a with | ⟨0, _⟩ => rfl)
theorem lidx5_eq (r : Fin 32768) (j : Fin 256) (k : Fin 64) : lidx_main_v5 (ix2 r j) k = ix2 r k :=
  funext fun a => Fin.ext (by match a with | ⟨0, _⟩ => rfl | ⟨1, _⟩ => rfl)
theorem ridx5_eq (r : Fin 32768) (j : Fin 256) (k : Fin 64) : ridx_main_v5 (ix2 r j) k = ix2 k j :=
  funext fun a => Fin.ext (by match a with | ⟨0, _⟩ => rfl | ⟨1, _⟩ => rfl)
theorem idx78_eq (r : Fin 32768) (j : Fin 256) : idx_main_v7 (idx_main_v8 (ix2 r j)) = ix1 j :=
  funext fun a => Fin.ext (by match a with | ⟨0, _⟩ => rfl)
theorem idx10_eq (r : Fin 32768) (q : Fin 64) : idx_main_v10 (ix2 r q) = ix2 r (colI q) :=
  funext fun a => Fin.ext (by match a with | ⟨0, _⟩ => rfl | ⟨1, _⟩ => rfl)
theorem idx11_eq (r : Fin 32768) (q : Fin 64) : idx_main_v11 (ix2 r q) = ix2 r (colF q) :=
  funext fun a => Fin.ext (by match a with | ⟨0, _⟩ => rfl | ⟨1, _⟩ => rfl)
theorem idx12_eq (r : Fin 32768) (q : Fin 64) : idx_main_v12 (ix2 r q) = ix2 r (colG q) :=
  funext fun a => Fin.ext (by match a with | ⟨0, _⟩ => rfl | ⟨1, _⟩ => rfl)
theorem idx13_eq (r : Fin 32768) (q : Fin 64) : idx_main_v13 (ix2 r q) = ix2 r (colO q) :=
  funext fun a => Fin.ext (by match a with | ⟨0, _⟩ => rfl | ⟨1, _⟩ => rfl)
theorem lidx38_eq (r : Fin 32768) (u : Fin 1) (k : Fin 64) : lidx_main_v38 (ix2 r u) k = ix2 r k :=
  funext fun a => Fin.ext (by match a with | ⟨0, _⟩ => rfl | ⟨1, _⟩ => rfl)
theorem ridx38_eq (r : Fin 32768) (u : Fin 1) (k : Fin 64) : ridx_main_v38 (ix2 r u) k = ix2 k u :=
  funext fun a => Fin.ext (by match a with | ⟨0, _⟩ => rfl | ⟨1, _⟩ => rfl)
theorem idx3940_eq (r : Fin 32768) (u : Fin 1) : idx_main_v39 (idx_main_v40 (ix2 r u)) = ix1 (0 : Fin 1) :=
  funext fun a => Fin.ext (by match a with | ⟨0, _⟩ => rfl)

/-! ## The concatenated row -/

/-- Its first 2048 entries are the observation's. -/
theorem concat_obs (r : Fin 32768) (k : Fin 2048) : val_main_v0 (F := Ideal) x0 x1 (ix2 r (rowS k)) = x0 (ix2 r k) := by
  unfold val_main_v0
  exact concatenate_pair_apply_left (t := S32768x2560) (s₁ := S32768x2048) (s₂ := S32768x512) (1 : Fin 2) x0 x1
    concatenates_S32768x2048_S32768x512_S32768x2560_d1 (ix2 r (rowS k)) rfl (ix2 r k) (fun b => by
      match b with
      | ⟨0, _⟩ => rfl
      | ⟨1, _⟩ => rfl)

/-- Its last 512 entries are the action's. -/
theorem concat_act (r : Fin 32768) (k : Fin 512) : val_main_v0 (F := Ideal) x0 x1 (ix2 r (rowA k)) = x1 (ix2 r k) := by
  unfold val_main_v0
  exact concatenate_pair_apply_right (t := S32768x2560) (s₁ := S32768x2048) (s₂ := S32768x512) (1 : Fin 2) x0 x1
    concatenates_S32768x2048_S32768x512_S32768x2560_d1 (ix2 r (rowA k)) rfl rfl (ix2 r k) (fun b hb => by
      match b with
      | ⟨0, _⟩ => rfl
      | ⟨1, _⟩ => exact absurd rfl hb) (by show k.val + 2048 = 2048 + k.val; omega)

/-! ## The pre-activations -/

theorem gates_apply (r : Fin 32768) (j : Fin 256) :
    val_main_v9 (F := Ideal) x0 x1 x2 x4 x5 x6 x7 (ix2 r j) = gates x0 x1 x2 x4 x5 x6 x7 r j := by
  have key := gateSum_stacked (fun k => val_main_v0 (F := Ideal) x0 x1 (ix2 r k)) (fun k => x4 (ix2 k j))
    (fun k => x2 (ix2 r k)) (fun k => x6 (ix2 k j)) (x5 (ix1 j)) (x7 (ix1 j))
  simp only [concat_obs, concat_act] at key
  simp only [val_main_v9_apply, val_main_v6_apply, val_main_v4_apply, val_main_v1_apply, val_main_v3_apply, val_main_v2_apply,
    val_main_v5_apply, val_main_v8_apply, val_main_v7_apply, lidx1_eq, ridx1_eq, idx23_eq, lidx5_eq, ridx5_eq, idx78_eq,
    Ideal.addf_def]
  exact key

/-! ## The three results -/

/-- The new cell state. -/
theorem newC_eq : val_main_v35 (F := Ideal) x0 x1 x2 x3 x4 x5 x6 x7 = newC x0 x1 x2 x3 x4 x5 x6 x7 := by
  funext i
  obtain ⟨r, q, rfl⟩ : ∃ (r : Fin 32768) (q : Fin 64), i = ix2 r q := ⟨i 0, i 1, eq_ix2 i⟩
  simp only [val_main_v35_apply, val_main_v33_apply, val_main_v25_apply, val_main_v24_apply, val_main_cst_2_apply,
    val_main_v23_apply, val_main_v22_apply, val_main_cst_1_apply, val_main_v21_apply, val_main_v20_apply, val_main_v11_apply,
    val_main_v34_apply, val_main_v19_apply, val_main_v18_apply, val_main_cst_0_apply, val_main_v17_apply, val_main_v16_apply,
    val_main_cst_apply, val_main_v15_apply, val_main_v14_apply, val_main_v10_apply, val_main_v26_apply, val_main_v12_apply,
    idx10_eq, idx11_eq, idx12_eq, gates_apply,
    Ideal.addf_def, Ideal.mulf_def, Ideal.hostDivf_def, Ideal.hostUnary_exp_def, Ideal.hostNegf_def, Ideal.negf_def,
    Ideal.hostUnary_tanh_def, Ideal.ofBits_def, ofBits_one, logistic_spelt]
  rfl

/-- The new hidden state. -/
theorem newH_eq : val_main_v37 (F := Ideal) x0 x1 x2 x3 x4 x5 x6 x7 = newH x0 x1 x2 x3 x4 x5 x6 x7 := by
  funext i
  obtain ⟨r, q, rfl⟩ : ∃ (r : Fin 32768) (q : Fin 64), i = ix2 r q := ⟨i 0, i 1, eq_ix2 i⟩
  simp only [val_main_v37_apply, val_main_v36_apply, newC_eq, val_main_v32_apply, val_main_v31_apply, val_main_cst_4_apply,
    val_main_v30_apply, val_main_v29_apply, val_main_cst_3_apply, val_main_v28_apply, val_main_v27_apply, val_main_v13_apply,
    idx13_eq, gates_apply,
    Ideal.addf_def, Ideal.mulf_def, Ideal.hostDivf_def, Ideal.hostUnary_exp_def, Ideal.hostNegf_def, Ideal.negf_def,
    Ideal.hostUnary_tanh_def, Ideal.ofBits_def, ofBits_one, logistic_spelt]
  rfl

/-- The read-out. -/
theorem out_eq : val_main_v42 (F := Ideal) x0 x1 x2 x3 x4 x5 x6 x7 x8 x9 = out x0 x1 x2 x3 x4 x5 x6 x7 x8 x9 := by
  funext i
  obtain ⟨r, u, rfl⟩ : ∃ (r : Fin 32768) (u : Fin 1), i = ix2 r u := ⟨i 0, i 1, eq_ix2 i⟩
  obtain rfl : u = (0 : Fin 1) := Subsingleton.elim _ _
  simp only [val_main_v42_apply, val_main_v41_apply, val_main_v38_apply, newH_eq, val_main_v40_apply, val_main_v39_apply,
    lidx38_eq, ridx38_eq, idx3940_eq, Ideal.addf_def, Ideal.hostUnary_tanh_def]
  rfl

end Cert.ReferenceIdeal.RefValue

end
-- ==== Proof.lean ====
/-
  The kernel computes one step of an LSTM cell with a scalar read-out, 1024 batch rows per grid point, and the
  reference computes the same step on whole arrays; over the extended reals the two agree on all three results
  (the read-out, the new hidden state, the new cell state).

  Both sides are shown to be the functions of Proof/CellSpec.lean: the kernel's run in Proof/KernelValue.lean (over
  the body's values in Proof/BodyValue.lean and the lane selection of Proof/GateMask.lean), the reference's run in
  Proof/RefValue.lean. The kernel splits the input product into an observation part and an action part, adds the two
  biases first, picks each gate's activation by lane and sums the read-out over lanes; the reference multiplies the
  concatenated row, adds the biases one at a time, cuts the gates apart and takes a matrix product for the read-out.
  Sums of extended reals may be cut and re-bracketed freely, so no input needs to be finite.
  The idealization rewrote nothing, so that conjunct is trivial; the three frames are the generated ones.
-/
import proofs.«128895_j18322330485052_2_alg».proof.Defs
import proofs.«128895_j18322330485052_2_alg».proof.Proof.Gen.Kernel
import proofs.«128895_j18322330485052_2_alg».proof.Proof.Gen.Kernel.Skeleton
import proofs.«128895_j18322330485052_2_alg».proof.Proof.Gen.Kernel.Launch
import proofs.«128895_j18322330485052_2_alg».proof.Proof.Gen.Kernel.Points
import proofs.«128895_j18322330485052_2_alg».proof.Proof.Gen.Kernel.Frame
import proofs.«128895_j18322330485052_2_alg».proof.Proof.Gen.KernelIdeal
import proofs.«128895_j18322330485052_2_alg».proof.Proof.Gen.KernelIdeal.Skeleton
import proofs.«128895_j18322330485052_2_alg».proof.Proof.Gen.KernelIdeal.Launch
import proofs.«128895_j18322330485052_2_alg».proof.Proof.Gen.KernelIdeal.Points
import proofs.«128895_j18322330485052_2_alg».proof.Proof.Gen.KernelIdeal.Frame
import proofs.«128895_j18322330485052_2_alg».proof.Proof.Gen.ReferenceIdeal
import proofs.«128895_j18322330485052_2_alg».proof.Proof.Gen.Pre_finite_inputs
import proofs.«128895_j18322330485052_2_alg».proof.Proof.Gen.KernelIdeal.Value
import proofs.«128895_j18322330485052_2_alg».proof.Proof.Gen.ReferenceIdeal.Run
import proofs.«128895_j18322330485052_2_alg».proof.Proof.Gen.ReferenceIdeal.Read
import proofs.«128895_j18322330485052_2_alg».proof.Proof.KernelValue
import proofs.«128895_j18322330485052_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both runs end with the three results at the cell's equations of argument arrays that agree. -/
theorem algebraic : Cert.algebraic_KernelIdeal_ReferenceIdeal := by
  intro m ρ m' ρ' _ hagree
  refine ⟨_, _, _, Cert.KernelIdeal.ArrayValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2⟩
  · rw [Cert.ReferenceIdeal.Read.val_main_v42_eq, Cert.ReferenceIdeal.RefValue.out_eq, a0, a1, a2, a3, a4, a5, a6, a7, a8, a9]
  · rw [Cert.ReferenceIdeal.Read.val_main_v37_eq, Cert.ReferenceIdeal.RefValue.newH_eq, a0, a1, a2, a3, a4, a5, a6, a7]
  · rw [Cert.ReferenceIdeal.Read.val_main_v35_eq, Cert.ReferenceIdeal.RefValue.newC_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
